-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S32x16 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x32 : Shape := ⟨2, ![10000, 32]⟩
abbrev S400x32 : Shape := ⟨2, ![400, 32]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S1x32, .f32⟩
  | .local _ .vmem, ⟨5, _⟩ => ⟨S32x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x32, .bf16⟩
  | .local _ .vmem, ⟨10, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  k0_off1_packedbf16 : ∀ i : grid0.Coords, ∀ (k0_h2 : k0_cond2 i = 1#1), (Rect.unit (s := S10000x16) (k0_off1 i) S400x16.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S10000x32, .f32⟩
  | .hbm, ⟨7, _⟩ => ⟨S10000x32, .f32⟩
  | .hbm, ⟨8, _⟩ => ⟨S1x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.WordRuns.lean ====
import proofs.«161536_g60687887893100_cont_9to1c4b_149_5_alg».proof.Proof.Gen.Kernel.Frame
import proofs.«161536_g60687887893100_cont_9to1c4b_149_5_alg».proof.Proof.Gen.Kernel.Skeleton
import Idealize.ShloMosaic.Lib.Pipeline.Frame
import Idealize.ShloMosaic.Lib.Pipeline.Value
import Idealize.ShloMosaic.Lib.Exec.Geometry
import Idealize.ShloMosaic.Lib.WritesUnit

/-!
# The kernel body, run symbolically in each of its three control cases

The grid has 2 × 25 points: a first sweep over the 25 row blocks of the adjacency matrix, then a second one.
* At the very first point the body forms s1 = x · W1 (all 10000 rows) in its first scratch buffer.
* At every point of the first sweep it forms, for the current block A_i of 400 rows of the adjacency matrix,
  relu (A_i · s1 + b1) · W2 and stores it as rows [400 i, 400 i + 400) of its second scratch buffer s2.
* At every point of the second sweep it stores A_i · s2 + b2 into the output block.

Each case is stated as a triple with the contents of every buffer NAMED: the inputs are read and handed back,
the scratch buffers are handed back at the contents the stores leave. For the row-slice store into s2 the new
contents are described by RowsSet: the old contents off the rows written, the payload on them.
The statements hold for any interpretation F of the float operations.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as the body computes them from the grid coordinates:
    the first point of the grid; the first sweep over the row blocks; the second sweep. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev inSweep1 (i : grid0.Coords) : Prop := k0_cond2 i = 1#1
abbrev inSweep2 (i : grid0.Coords) : Prop := k0_cond3 i = 1#1

/-- The offset pair (0, 0) is the zero offset. -/
theorem zero2 : (![0, 0] : Fin 2 → ℕ) = fun _ => 0 := by funext a; fin_cases a <;> rfl

/-- A store through the rectangle that is the whole shape, made last, leaves its payload. -/
theorem read_store_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the rectangle that is the whole shape reads the contents. -/
theorem load_whole {S : Shape} {e : EltTy} (mr : Memref sig .tc .vmem S e) (hm : mr.IsWhole) {off : Fin S.rank → ℕ}
    (h : off = fun _ => 0) (inb : ∀ a, off a + S.size a ≤ S.size a) (x : S.Idx → Elt F e) :
    View.readAt (Elt F) mr.view (Rect.unit off S.size inb).toLoadRect (hm.unread x) = x := by
  rw [View.readAt_eq_ld, hm.read_unread, View.ld_unit_zero h]

/-- The contents d' are d with the 400 rows from row o on replaced by the block p. -/
def RowsSet (o : ℕ) (d : Vec F S10000x16 .bf16) (p : Vec F S400x16 .bf16) (d' : Vec F S10000x16 .bf16) : Prop :=
  (∀ y : S10000x16.Idx, ((y 0).val < o ∨ o + 400 ≤ (y 0).val) → d' y = d y) ∧
  (∀ (y : S10000x16.Idx) (x : S400x16.Idx), (y 0).val = o + (x 0).val → (y 1).val = (x 1).val → d' y = p x)

/-- What one row-slice store leaves in a whole buffer of the shape of s2, read back. -/
theorem rowsSet_of_store (mr : Memref sig .tc .vmem S10000x16 .bf16) (hm : mr.IsWhole) (off : Fin 2 → ℕ) (o : ℕ) (hoff : off = ![o, 0])
    (inb : ∀ a : Fin 2, off a + S400x16.size a ≤ S10000x16.size a) (d : Vec F S10000x16 .bf16) (p : Vec F S400x16 .bf16) :
    RowsSet o d p (View.read (Elt F) mr.view (mr.view.writes (Elt F) (hm.unread d)
      [(⟨Rect.unit (s := S10000x16) off S400x16.size inb, p⟩ : View.Piece (Elt F) S10000x16 .bf16)])) := by
  refine ⟨fun y hy => ?_, fun y x h0 h1 => ?_⟩
  · rw [View.read_writes_cons_rows_of_not_mem mr.view _ inb p [] y hoff rfl hy]
    exact congrFun (hm.read_unread d) y
  · exact View.read_writes_cons_rows_of_mem mr.view _ inb p [] y x hoff h0 h1

/-- The row offset of the slice of s2 the first sweep stores at grid point i. -/
abbrev rowOff (i : grid0.Coords) : ℕ := 400 * (i 1).val

set_option maxHeartbeats 2000000 in
/-- SECOND SWEEP. With s2 in the second scratch buffer, the body stores A_i · s2 + b2 (the payload k0_pay3)
    into the output block and changes nothing else. -/
theorem runC (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : ¬atStart i) (hc1 : ¬inSweep1 i) (hc2 : inSweep2 i)
    (x0 : Vec F S10000x128 .f32) (x1 : Vec F S400x10000 .f32) (x2 : Vec F S128x32 .f32) (x3 : Vec F S1x32 .f32) (x4 : Vec F S32x16 .f32) (x5 : Vec F S1x16 .f32) (s1 : Vec F S10000x32 .bf16) (s2 : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s1 ∗ owns (c : Thread nD τ) arg10 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 s2 x5) ∗ owns (c : Thread nD τ) arg9 fullShare s1 ∗ owns (c : Thread nD τ) arg10 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_store_whole _ _ zero2, load_whole arg3 harg3 zero2, load_whole arg10 harg10 zero2, load_whole arg7 harg7 zero2]
  isplitl [HS0]
  · iexists _; isplitr; · ipureintro; exact harg9.read_unread _
    iexact HS0
  iexists _; isplitr; · ipureintro; exact harg10.read_unread _
  iexact HS1

set_option maxHeartbeats 2000000 in
/-- FIRST SWEEP, after the first point. With s1 in the first scratch buffer and d in the second, the body stores
    relu (A_i · s1 + b1) · W2 (the payload k0_pay2) into rows [rowOff i, rowOff i + 400) of the second. -/
theorem runB (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : ¬atStart i) (hc1 : inSweep1 i) (hc2 : ¬inSweep2 i)
    (x0 : Vec F S10000x128 .f32) (x1 : Vec F S400x10000 .f32) (x2 : Vec F S128x32 .f32) (x3 : Vec F S1x32 .f32) (x4 : Vec F S32x16 .f32) (x5 : Vec F S1x16 .f32) (s1 : Vec F S10000x32 .bf16) (d : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare s1 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare s1 ∗ (∃ d', ⌜RowsSet (rowOff i) d (k0_pay2 x1 s1 x3 x4) d'⌝ ∗ owns (c : Thread nD τ) arg10 fullShare d')) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; · ipureintro; exact harg9.read_unread _
    iexact HS0
  iexists _; isplitr; swap
  · iexists _; isplitr; swap; · iexact HS1
    ipureintro; rfl
  ipureintro

  have h := rowsSet_of_store arg10 harg10 (k0_off1 i) (rowOff i) (k0_off1_eq i) (k0_off1_inb i hc1) d (k0_pay2 x1 s1 x3 x4)
  rw [load_whole arg3 harg3 zero2, load_whole arg9 harg9 zero2, load_whole arg5 harg5 zero2, load_whole arg6 harg6 zero2]
  exact h

set_option maxHeartbeats 2000000 in
/-- THE FIRST POINT. The body stores s1 = x · W1 (the payload k0_pay1) into the whole first scratch buffer, whatever it
    held, and then does the first sweep's step with that s1. -/
theorem runA (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : atStart i) (hc1 : inSweep1 i) (hc2 : ¬inSweep2 i)
    (x0 : Vec F S10000x128 .f32) (x1 : Vec F S400x10000 .f32) (x2 : Vec F S128x32 .f32) (x3 : Vec F S1x32 .f32) (x4 : Vec F S32x16 .f32) (x5 : Vec F S1x16 .f32) (d : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ e, owns (c : Thread nD τ) arg9 fullShare e) ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (k0_pay1 x0 x2) ∗ (∃ d', ⌜RowsSet (rowOff i) d (k0_pay2 x1 (k0_pay1 x0 x2) x3 x4) d'⌝ ∗ owns (c : Thread nD τ) arg10 fullShare d')) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    unfold runA.sl.HS0_1
    rw [read_store_whole _ _ zero2, load_whole arg2 harg2 zero2, load_whole arg4 harg4 zero2]
  iexists _; isplitr; swap
  · iexists _; isplitr; swap; · iexact HS1
    ipureintro; rfl
  ipureintro
  unfold runA.sl.v13 runA.sl.HS0_1
  have h := rowsSet_of_store arg10 harg10 (k0_off1 i) (rowOff i) (k0_off1_eq i) (k0_off1_inb i hc1) d (k0_pay2 x1 (k0_pay1 x0 x2) x3 x4)
  rw [View.readCov_unit_zero _ zero2, load_whole arg3 harg3 zero2, load_whole arg2 harg2 zero2, load_whole arg4 harg4 zero2,
    load_whole arg5 harg5 zero2, load_whole arg6 harg6 zero2]
  exact h

end Cert.Kernel.Gen

end
-- ==== Proof.WordData.lean ====
import proofs.«161536_g60687887893100_cont_9to1c4b_149_5_alg».proof.Proof.WordRuns

/-!
# What the kernel's buffers hold, point by point, and the run of the whole program

The proof data of the pipeline. Write A_i for the i-th block of 400 rows of the adjacency matrix.
* The first scratch buffer holds S1 = x · W1 from the first point on.
* The second holds, after the n-th point of the first sweep, rows [0, 400 n) of
  S2 = relu (A · S1 + b1) · W2 (its i-th block of rows is the body's result on A_i); from the end of the first sweep
  on it is S2. This is the invariant Phi; the predicate Filled n says that a buffer agrees with S2 on its first 400 n rows.
* The output block is left alone during the first sweep (nothing is written back then) and holds
  A_i · S2 + b2 after the i-th point of the second sweep.
With the three runs of the body this gives the body obligation at every point, hence the run of the program
with every array's final contents named, and the frame (the argument arrays end unchanged).
Everything here holds for any interpretation F of the float operations.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the 50 points of the grid -/

theorem atStart_iff : ∀ t : Fin cfg0.N, atStart (grid0.coords t) ↔ t.val = 0 :=
  (by decide +kernel : ∀ t : Fin grid0.N, atStart (grid0.coords t) ↔ t.val = 0)
theorem inSweep1_iff : ∀ t : Fin cfg0.N, inSweep1 (grid0.coords t) ↔ t.val < 25 :=
  (by decide +kernel : ∀ t : Fin grid0.N, inSweep1 (grid0.coords t) ↔ t.val < 25)
theorem inSweep2_iff : ∀ t : Fin cfg0.N, inSweep2 (grid0.coords t) ↔ 25 ≤ t.val :=
  (by decide +kernel : ∀ t : Fin grid0.N, inSweep2 (grid0.coords t) ↔ 25 ≤ t.val)
/-- The second grid coordinate, the row block, of the t-th point. -/
theorem coord1 : ∀ t : Fin cfg0.N, ((grid0.coords t) 1).val = t.val % 25 :=
  (by decide +kernel : ∀ t : Fin grid0.N, ((grid0.coords t) 1).val = t.val % 25)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The body stores into the output block exactly at the points of the second sweep, -/
theorem idle6 : ∀ t : Fin cfg0.N, cfg0.idle 6 (grid0.coords t) = decide (t.val < 25) := by decide +kernel
/-- and exactly there the block is written back (its index changes at each of them, and the last point is one). -/
theorem flush6 : ∀ t : Fin cfg0.N, (cfg0.win 6).flush t = decide (25 ≤ t.val) :=
  (by decide +kernel : ∀ t : Fin grid0.N, win0_6.flush t = decide (25 ≤ t.val))

/-! ## The scratch buffers and their contents -/

abbrev scM0 : Memref sig .tc .vmem S10000x32 .bf16 := Memref.whole cc0_scratch0
abbrev scM1 : Memref sig .tc .vmem S10000x16 .bf16 := Memref.whole cc0_scratch1

/-- What the region hands the body before the first point: both scratch buffers at anything. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The grid's first point. -/
def p0 : Fin cfg0.N := ⟨0, by rw [show cfg0.N = 50 from N_0]; omega⟩

/-- S1 = x · W1, as the body forms it at the first point from the blocks of x and W1 (each the whole array). -/
def S1 (c : Dev nD) : Vec F S10000x32 .bf16 := k0_pay1 (iblk m c 0 p0) (iblk m c 2 p0)

/-- The block of 400 rows of S2 the body forms at point j of the first sweep: relu (A_j · S1 + b1) · W2. -/
def S2blk (c : Dev nD) (j : Fin cfg0.N) : Vec F S400x16 .bf16 := k0_pay2 (iblk m c 1 j) (S1 m c) (iblk m c 3 j) (iblk m c 4 j)

/-- The block of 400 rows a row of a 10000-row array lies in, -/
def blkOf (y : S10000x16.Idx) : Fin cfg0.N :=
  ⟨(y 0).val / 400, by have h : (y 0).val < 10000 := (y 0).isLt; rw [show cfg0.N = 50 from N_0]; omega⟩
/-- and its place inside that block. -/
def inBlk (y : S10000x16.Idx) : S400x16.Idx := fun a => match a with
  | ⟨0, _⟩ => ⟨(y 0).val % 400, Nat.mod_lt _ (by decide)⟩
  | ⟨1, _⟩ => ⟨(y 1).val, (y 1).isLt⟩

/-- S2, all 10000 rows: row r is row r % 400 of block r / 400. -/
def S2 (c : Dev nD) : Vec F S10000x16 .bf16 := fun y => S2blk m c (blkOf y) (inBlk y)

/-- The contents d agree with S2 on the first 400 n rows. -/
def Filled (c : Dev nD) (n : ℕ) (d : Vec F S10000x16 .bf16) : Prop :=
  ∀ y : S10000x16.Idx, (y 0).val < 400 * n → d y = S2 m c y

/-- One step of the first sweep: writing block t over contents that agree with S2 on the first 400 t rows gives contents
    that agree with it on the first 400 (t + 1). -/
theorem filled_step (c : Dev nD) (t : Fin cfg0.N) (d d' : Vec F S10000x16 .bf16) (hd : Filled m c t.val d)
    (h : RowsSet (400 * t.val) d (S2blk m c t) d') : Filled m c (t.val + 1) d' := by
  intro y hy
  have hy0 : (y 0).val < 10000 := (y 0).isLt
  by_cases hlt : (y 0).val < 400 * t.val
  · rw [h.1 y (Or.inl hlt)]; exact hd y hlt
  · have e1 : blkOf y = t := Fin.ext (by show (y 0).val / 400 = t.val; omega)
    have e2 := h.2 y (inBlk y) (by show (y 0).val = 400 * t.val + (y 0).val % 400; omega) rfl
    rw [e2]; show _ = S2blk m c (blkOf y) (inBlk y); rw [e1]

/-- THE INVARIANT before point n: before the first point the scratch buffers hold anything; afterwards the first holds S1
    and the second agrees with S2 on its first 400 n rows (all of them once n is 25). -/
def Phi (c : Dev nD) : ℕ → sProp 𝕄
  | 0 => Pipeline.ΦA spec0 c
  | n + 1 => iprop(iprop(owns (c : Thread nD τ) scM0 fullShare (S1 m c) ∗ (∃ d, ⌜Filled m c (n + 1) d⌝ ∗ owns (c : Thread nD τ) scM1 fullShare d)) ∗ (∃ r, prngReg c r))

theorem Phi_succ (c : Dev nD) (n : ℕ) :
    Phi m c (n + 1) = iprop(iprop(owns (c : Thread nD τ) scM0 fullShare (S1 m c) ∗ (∃ d, ⌜Filled m c (n + 1) d⌝ ∗ owns (c : Thread nD τ) scM1 fullShare d)) ∗ (∃ r, prngReg c r)) := rfl

theorem Phi_pos (c : Dev nD) (n : ℕ) (hn : n ≠ 0) :
    Phi m c n = iprop(iprop(owns (c : Thread nD τ) scM0 fullShare (S1 m c) ∗ (∃ d, ⌜Filled m c n d⌝ ∗ owns (c : Thread nD τ) scM1 fullShare d)) ∗ (∃ r, prngReg c r)) := by
  cases n with
  | zero => exact absurd rfl hn
  | succ n => rfl

/-! ## The pipeline's proof data -/

/-- After the body at point t every input's buffer holds its block; the output's holds A_i · S2 + b2 (this is read only at
    the points of the second sweep: at the others the body leaves the buffer as it found it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (S2 m c) (iblk m c 5 t)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay3 (iblk m c 1 t) (S2 m c) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves_in0 (c : Dev nD) (t : Fin cfg0.N) :
    (dats m 0 c).leavesExact 0 t = owns (c : Thread nD τ) (st0_0 t) fullShare (iblk m c 0 t) := by
  unfold Dat.leavesExact; rw [live0 t, after0_0]
theorem leaves_in1 (c : Dev nD) (t : Fin cfg0.N) :
    (dats m 0 c).leavesExact 1 t = owns (c : Thread nD τ) (st0_1 t) fullShare (iblk m c 1 t) := by
  unfold Dat.leavesExact; rw [live1 t, after0_1]
theorem leaves_in2 (c : Dev nD) (t : Fin cfg0.N) :
    (dats m 0 c).leavesExact 2 t = owns (c : Thread nD τ) (st0_2 t) fullShare (iblk m c 2 t) := by
  unfold Dat.leavesExact; rw [live2 t, after0_2]
theorem leaves_in3 (c : Dev nD) (t : Fin cfg0.N) :
    (dats m 0 c).leavesExact 3 t = owns (c : Thread nD τ) (st0_3 t) fullShare (iblk m c 3 t) := by
  unfold Dat.leavesExact; rw [live3 t, after0_3]
theorem leaves_in4 (c : Dev nD) (t : Fin cfg0.N) :
    (dats m 0 c).leavesExact 4 t = owns (c : Thread nD τ) (st0_4 t) fullShare (iblk m c 4 t) := by
  unfold Dat.leavesExact; rw [live4 t, after0_4]
theorem leaves_in5 (c : Dev nD) (t : Fin cfg0.N) :
    (dats m 0 c).leavesExact 5 t = owns (c : Thread nD τ) (st0_5 t) fullShare (iblk m c 5 t) := by
  unfold Dat.leavesExact; rw [live5 t, after0_5]

/-- In the first sweep the output's buffer is handed back as it was found; -/
theorem leaves6_idle (c : Dev nD) (t : Fin cfg0.N) (h : t.val < 25) :
    (dats m 0 c).leavesExact 6 t = iprop(∃ d, owns (c : Thread nD τ) (st0_6 t) fullShare ((dats m 0 c).before 6 t d)) :=
  (dats m 0 c).leavesExact_idle 6 t ((idle6 t).trans (decide_eq_true h)) ((flush6 t).trans (decide_eq_false (by omega)))
/-- in the second it holds A_i · S2 + b2. -/
theorem leaves6_live (c : Dev nD) (t : Fin cfg0.N) (h : 25 ≤ t.val) :
    (dats m 0 c).leavesExact 6 t = owns (c : Thread nD τ) (st0_6 t) fullShare (k0_pay3 (iblk m c 1 t) (S2 m c) (iblk m c 5 t)) := by
  unfold Dat.leavesExact; rw [idle6 t, decide_eq_false (by omega : ¬t.val < 25), after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; the point is the first one, a later one of the first
    sweep, or one of the second sweep, and the run of that case applies — the invariant hands it the scratch buffers at what
    the point before left and takes them back one block further on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [leaves_in0, leaves_in1, leaves_in2, leaves_in3, leaves_in4, leaves_in5]
  rw [show (dats m 0 c).Φ t.succ = Phi m c (t.val + 1) from rfl, show (dats m 0 c).Φ t.castSucc = Phi m c t.val from rfl, Phi_succ]
  have hN : t.val < 50 := lt_of_lt_of_eq t.isLt (show cfg0.N = 50 from N_0)
  by_cases h1 : t.val < 25
  · rw [leaves6_idle m c t h1]
    have hc1 : inSweep1 (grid0.coords t) := (inSweep1_iff t).mpr h1
    have hc2 : ¬inSweep2 (grid0.coords t) := fun h => absurd ((inSweep2_iff t).mp h) (by omega)
    have hoff : rowOff (grid0.coords t) = 400 * t.val := by
      show 400 * ((grid0.coords t) 1).val = _
      rw [coord1 t, Nat.mod_eq_of_lt h1]
    by_cases hz : t.val = 0
    · have hc0 : atStart (grid0.coords t) := (atStart_iff t).mpr hz
      obtain rfl : t = p0 := Fin.ext hz
      rw [show Phi m c (p0 : Fin cfg0.N).val = Pipeline.ΦA spec0 c from rfl, PhiA_eq]
      iintro ⟨⟨⟨HS0, ⟨%d1, HS1⟩⟩, Hg⟩, Ho, ⟨%d0, H0⟩, ⟨%e1, H1⟩, ⟨%e2, H2⟩, ⟨%e3, H3⟩, ⟨%e4, H4⟩, ⟨%e5, H5⟩, H6⟩
      iapply (runA c Set.univ (grid0.coords p0) _ _ _ _ _ _ _ _ _ _ _ _ _ _ _ _ _ _ hc0 hc1 hc2 (iblk m c 0 p0) (iblk m c 1 p0) (iblk m c 2 p0) (iblk m c 3 p0) (iblk m c 4 p0) (iblk m c 5 p0) d1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%d', %hd', HS1⟩⟩
      isplitl [HS0 HS1 Hg]
      · isplitl [HS0 HS1]
        · isplitl [HS0]
          · iexact HS0
          iexists d'; isplitr
          · ipureintro
            exact filled_step m c p0 d1 d' (fun y hy => absurd hy (by omega)) (by rw [← hoff]; exact hd')
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬atStart (grid0.coords t) := fun h => hz ((atStart_iff t).mp h)
      rw [Phi_pos m c t.val hz]
      iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, H6⟩
      iapply (runB c Set.univ (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) d1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%d', %hd', HS1⟩⟩
      isplitl [HS0 HS1 Hg]
      · isplitl [HS0 HS1]
        · isplitl [HS0]
          · iexact HS0
          iexists d'; isplitr
          · ipureintro
            exact filled_step m c t d1 d' hd1 (by rw [← hoff]; exact hd')
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h2 : 25 ≤ t.val := by omega
    rw [leaves6_live m c t h2]
    have hc0 : ¬atStart (grid0.coords t) := fun h => absurd ((atStart_iff t).mp h) (by omega)
    have hc1 : ¬inSweep1 (grid0.coords t) := fun h => h1 ((inSweep1_iff t).mp h)
    have hc2 : inSweep2 (grid0.coords t) := (inSweep2_iff t).mpr h2
    rw [Phi_pos m c t.val (by omega)]
    iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
    obtain rfl : d1 = S2 m c := funext fun y => hd1 y (by have : (y 0).val < 10000 := (y 0).isLt; omega)
    iapply (runC c Set.univ (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) (S2 m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (S2 m c); isplitr
        · ipureintro; exact fun y _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c cfg0.N from rfl,
    Phi_pos m c cfg0.N (by rw [show cfg0.N = 50 from N_0]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and in every final state each array of the pipeline holds what
    the proof data says (an input its contents at entry, the output those overwritten by the blocks written back) and every
    other buffer outside the region what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.IdealRuns.lean ====
import proofs.«161536_g60687887893100_cont_9to1c4b_149_5_alg».proof.Proof.Gen.KernelIdeal.Frame
import proofs.«161536_g60687887893100_cont_9to1c4b_149_5_alg».proof.Proof.Gen.KernelIdeal.Skeleton
import Idealize.ShloMosaic.Lib.Pipeline.Frame
import Idealize.ShloMosaic.Lib.Pipeline.Value
import Idealize.ShloMosaic.Lib.Exec.Geometry
import Idealize.ShloMosaic.Lib.WritesUnit

/-!
# The kernel body, run symbolically in each of its three control cases

The grid has 2 × 25 points: a first sweep over the 25 row blocks of the adjacency matrix, then a second one.
* At the very first point the body forms s1 = x · W1 (all 10000 rows) in its first scratch buffer.
* At every point of the first sweep it forms, for the current block A_i of 400 rows of the adjacency matrix,
  relu (A_i · s1 + b1) · W2 and stores it as rows [400 i, 400 i + 400) of its second scratch buffer s2.
* At every point of the second sweep it stores A_i · s2 + b2 into the output block.

Each case is stated as a triple with the contents of every buffer NAMED: the inputs are read and handed back,
the scratch buffers are handed back at the contents the stores leave. For the row-slice store into s2 the new
contents are described by RowsSet: the old contents off the rows written, the payload on them.
The statements hold for any interpretation F of the float operations.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as the body computes them from the grid coordinates:
    the first point of the grid; the first sweep over the row blocks; the second sweep. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev inSweep1 (i : grid0.Coords) : Prop := k0_cond2 i = 1#1
abbrev inSweep2 (i : grid0.Coords) : Prop := k0_cond3 i = 1#1

/-- The offset pair (0, 0) is the zero offset. -/
theorem zero2 : (![0, 0] : Fin 2 → ℕ) = fun _ => 0 := by funext a; fin_cases a <;> rfl

/-- A store through the rectangle that is the whole shape, made last, leaves its payload. -/
theorem read_store_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the rectangle that is the whole shape reads the contents. -/
theorem load_whole {S : Shape} {e : EltTy} (mr : Memref sig .tc .vmem S e) (hm : mr.IsWhole) {off : Fin S.rank → ℕ}
    (h : off = fun _ => 0) (inb : ∀ a, off a + S.size a ≤ S.size a) (x : S.Idx → Elt F e) :
    View.readAt (Elt F) mr.view (Rect.unit off S.size inb).toLoadRect (hm.unread x) = x := by
  rw [View.readAt_eq_ld, hm.read_unread, View.ld_unit_zero h]

/-- The contents d' are d with the 400 rows from row o on replaced by the block p. -/
def RowsSet (o : ℕ) (d : Vec F S10000x16 .bf16) (p : Vec F S400x16 .bf16) (d' : Vec F S10000x16 .bf16) : Prop :=
  (∀ y : S10000x16.Idx, ((y 0).val < o ∨ o + 400 ≤ (y 0).val) → d' y = d y) ∧
  (∀ (y : S10000x16.Idx) (x : S400x16.Idx), (y 0).val = o + (x 0).val → (y 1).val = (x 1).val → d' y = p x)

/-- What one row-slice store leaves in a whole buffer of the shape of s2, read back. -/
theorem rowsSet_of_store (mr : Memref sig .tc .vmem S10000x16 .bf16) (hm : mr.IsWhole) (off : Fin 2 → ℕ) (o : ℕ) (hoff : off = ![o, 0])
    (inb : ∀ a : Fin 2, off a + S400x16.size a ≤ S10000x16.size a) (d : Vec F S10000x16 .bf16) (p : Vec F S400x16 .bf16) :
    RowsSet o d p (View.read (Elt F) mr.view (mr.view.writes (Elt F) (hm.unread d)
      [(⟨Rect.unit (s := S10000x16) off S400x16.size inb, p⟩ : View.Piece (Elt F) S10000x16 .bf16)])) := by
  refine ⟨fun y hy => ?_, fun y x h0 h1 => ?_⟩
  · rw [View.read_writes_cons_rows_of_not_mem mr.view _ inb p [] y hoff rfl hy]
    exact congrFun (hm.read_unread d) y
  · exact View.read_writes_cons_rows_of_mem mr.view _ inb p [] y x hoff h0 h1

/-- The row offset of the slice of s2 the first sweep stores at grid point i. -/
abbrev rowOff (i : grid0.Coords) : ℕ := 400 * (i 1).val

set_option maxHeartbeats 2000000 in
/-- SECOND SWEEP. With s2 in the second scratch buffer, the body stores A_i · s2 + b2 (the payload k0_pay3)
    into the output block and changes nothing else. -/
theorem runC (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : ¬atStart i) (hc1 : ¬inSweep1 i) (hc2 : inSweep2 i)
    (x0 : Vec F S10000x128 .f32) (x1 : Vec F S400x10000 .f32) (x2 : Vec F S128x32 .f32) (x3 : Vec F S1x32 .f32) (x4 : Vec F S32x16 .f32) (x5 : Vec F S1x16 .f32) (s1 : Vec F S10000x32 .bf16) (s2 : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s1 ∗ owns (c : Thread nD τ) arg10 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 s2 x5) ∗ owns (c : Thread nD τ) arg9 fullShare s1 ∗ owns (c : Thread nD τ) arg10 fullShare s2) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_store_whole _ _ zero2, load_whole arg3 harg3 zero2, load_whole arg10 harg10 zero2, load_whole arg7 harg7 zero2]
  isplitl [HS0]
  · iexists _; isplitr; · ipureintro; exact harg9.read_unread _
    iexact HS0
  iexists _; isplitr; · ipureintro; exact harg10.read_unread _
  iexact HS1

set_option maxHeartbeats 2000000 in
/-- FIRST SWEEP, after the first point. With s1 in the first scratch buffer and d in the second, the body stores
    relu (A_i · s1 + b1) · W2 (the payload k0_pay2) into rows [rowOff i, rowOff i + 400) of the second. -/
theorem runB (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : ¬atStart i) (hc1 : inSweep1 i) (hc2 : ¬inSweep2 i)
    (x0 : Vec F S10000x128 .f32) (x1 : Vec F S400x10000 .f32) (x2 : Vec F S128x32 .f32) (x3 : Vec F S1x32 .f32) (x4 : Vec F S32x16 .f32) (x5 : Vec F S1x16 .f32) (s1 : Vec F S10000x32 .bf16) (d : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare s1 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare s1 ∗ (∃ d', ⌜RowsSet (rowOff i) d (k0_pay2 x1 s1 x3 x4) d'⌝ ∗ owns (c : Thread nD τ) arg10 fullShare d')) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; · ipureintro; exact harg9.read_unread _
    iexact HS0
  iexists _; isplitr; swap
  · iexists _; isplitr; swap; · iexact HS1
    ipureintro; rfl
  ipureintro

  have h := rowsSet_of_store arg10 harg10 (k0_off1 i) (rowOff i) (k0_off1_eq i) (k0_off1_inb i hc1) d (k0_pay2 x1 s1 x3 x4)
  rw [load_whole arg3 harg3 zero2, load_whole arg9 harg9 zero2, load_whole arg5 harg5 zero2, load_whole arg6 harg6 zero2]
  exact h

set_option maxHeartbeats 2000000 in
/-- THE FIRST POINT. The body stores s1 = x · W1 (the payload k0_pay1) into the whole first scratch buffer, whatever it
    held, and then does the first sweep's step with that s1. -/
theorem runA (c : Dev nD) (E : Set ℕ) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S32x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x32 .bf16) (harg9 : arg9.IsWhole) (arg10 : Memref sig .tc .vmem S10000x16 .bf16) (harg10 : arg10.IsWhole)
    (hc0 : atStart i) (hc1 : inSweep1 i) (hc2 : ¬inSweep2 i)
    (x0 : Vec F S10000x128 .f32) (x1 : Vec F S400x10000 .f32) (x2 : Vec F S128x32 .f32) (x3 : Vec F S1x32 .f32) (x4 : Vec F S32x16 .f32) (x5 : Vec F S1x16 .f32) (d : Vec F S10000x16 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ e, owns (c : Thread nD τ) arg9 fullShare e) ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (k0_pay1 x0 x2) ∗ (∃ d', ⌜RowsSet (rowOff i) d (k0_pay2 x1 (k0_pay1 x0 x2) x3 x4) d'⌝ ∗ owns (c : Thread nD τ) arg10 fullShare d')) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    unfold runA.sl.HS0_1
    rw [read_store_whole _ _ zero2, load_whole arg2 harg2 zero2, load_whole arg4 harg4 zero2]
  iexists _; isplitr; swap
  · iexists _; isplitr; swap; · iexact HS1
    ipureintro; rfl
  ipureintro
  unfold runA.sl.v13 runA.sl.HS0_1
  have h := rowsSet_of_store arg10 harg10 (k0_off1 i) (rowOff i) (k0_off1_eq i) (k0_off1_inb i hc1) d (k0_pay2 x1 (k0_pay1 x0 x2) x3 x4)
  rw [View.readCov_unit_zero _ zero2, load_whole arg3 harg3 zero2, load_whole arg2 harg2 zero2, load_whole arg4 harg4 zero2,
    load_whole arg5 harg5 zero2, load_whole arg6 harg6 zero2]
  exact h

end Cert.KernelIdeal.Gen

end
-- ==== Proof.IdealData.lean ====
import proofs.«161536_g60687887893100_cont_9to1c4b_149_5_alg».proof.Proof.IdealRuns

/-!
# What the kernel's buffers hold, point by point, and the run of the whole program

The proof data of the pipeline. Write A_i for the i-th block of 400 rows of the adjacency matrix.
* The first scratch buffer holds S1 = x · W1 from the first point on.
* The second holds, after the n-th point of the first sweep, rows [0, 400 n) of
  S2 = relu (A · S1 + b1) · W2 (its i-th block of rows is the body's result on A_i); from the end of the first sweep
  on it is S2. This is the invariant Phi; the predicate Filled n says that a buffer agrees with S2 on its first 400 n rows.
* The output block is left alone during the first sweep (nothing is written back then) and holds
  A_i · S2 + b2 after the i-th point of the second sweep.
With the three runs of the body this gives the body obligation at every point, hence the run of the program
with every array's final contents named, and the frame (the argument arrays end unchanged).
Everything here holds for any interpretation F of the float operations.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the 50 points of the grid -/

theorem atStart_iff : ∀ t : Fin cfg0.N, atStart (grid0.coords t) ↔ t.val = 0 :=
  (by decide +kernel : ∀ t : Fin grid0.N, atStart (grid0.coords t) ↔ t.val = 0)
theorem inSweep1_iff : ∀ t : Fin cfg0.N, inSweep1 (grid0.coords t) ↔ t.val < 25 :=
  (by decide +kernel : ∀ t : Fin grid0.N, inSweep1 (grid0.coords t) ↔ t.val < 25)
theorem inSweep2_iff : ∀ t : Fin cfg0.N, inSweep2 (grid0.coords t) ↔ 25 ≤ t.val :=
  (by decide +kernel : ∀ t : Fin grid0.N, inSweep2 (grid0.coords t) ↔ 25 ≤ t.val)
/-- The second grid coordinate, the row block, of the t-th point. -/
theorem coord1 : ∀ t : Fin cfg0.N, ((grid0.coords t) 1).val = t.val % 25 :=
  (by decide +kernel : ∀ t : Fin grid0.N, ((grid0.coords t) 1).val = t.val % 25)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The body stores into the output block exactly at the points of the second sweep, -/
theorem idle6 : ∀ t : Fin cfg0.N, cfg0.idle 6 (grid0.coords t) = decide (t.val < 25) := by decide +kernel
/-- and exactly there the block is written back (its index changes at each of them, and the last point is one). -/
theorem flush6 : ∀ t : Fin cfg0.N, (cfg0.win 6).flush t = decide (25 ≤ t.val) :=
  (by decide +kernel : ∀ t : Fin grid0.N, win0_6.flush t = decide (25 ≤ t.val))

/-! ## The scratch buffers and their contents -/

abbrev scM0 : Memref sig .tc .vmem S10000x32 .bf16 := Memref.whole cc0_scratch0
abbrev scM1 : Memref sig .tc .vmem S10000x16 .bf16 := Memref.whole cc0_scratch1

/-- What the region hands the body before the first point: both scratch buffers at anything. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The grid's first point. -/
def p0 : Fin cfg0.N := ⟨0, by rw [show cfg0.N = 50 from N_0]; omega⟩

/-- S1 = x · W1, as the body forms it at the first point from the blocks of x and W1 (each the whole array). -/
def S1 (c : Dev nD) : Vec F S10000x32 .bf16 := k0_pay1 (iblk m c 0 p0) (iblk m c 2 p0)

/-- The block of 400 rows of S2 the body forms at point j of the first sweep: relu (A_j · S1 + b1) · W2. -/
def S2blk (c : Dev nD) (j : Fin cfg0.N) : Vec F S400x16 .bf16 := k0_pay2 (iblk m c 1 j) (S1 m c) (iblk m c 3 j) (iblk m c 4 j)

/-- The block of 400 rows a row of a 10000-row array lies in, -/
def blkOf (y : S10000x16.Idx) : Fin cfg0.N :=
  ⟨(y 0).val / 400, by have h : (y 0).val < 10000 := (y 0).isLt; rw [show cfg0.N = 50 from N_0]; omega⟩
/-- and its place inside that block. -/
def inBlk (y : S10000x16.Idx) : S400x16.Idx := fun a => match a with
  | ⟨0, _⟩ => ⟨(y 0).val % 400, Nat.mod_lt _ (by decide)⟩
  | ⟨1, _⟩ => ⟨(y 1).val, (y 1).isLt⟩

/-- S2, all 10000 rows: row r is row r % 400 of block r / 400. -/
def S2 (c : Dev nD) : Vec F S10000x16 .bf16 := fun y => S2blk m c (blkOf y) (inBlk y)

/-- The contents d agree with S2 on the first 400 n rows. -/
def Filled (c : Dev nD) (n : ℕ) (d : Vec F S10000x16 .bf16) : Prop :=
  ∀ y : S10000x16.Idx, (y 0).val < 400 * n → d y = S2 m c y

/-- One step of the first sweep: writing block t over contents that agree with S2 on the first 400 t rows gives contents
    that agree with it on the first 400 (t + 1). -/
theorem filled_step (c : Dev nD) (t : Fin cfg0.N) (d d' : Vec F S10000x16 .bf16) (hd : Filled m c t.val d)
    (h : RowsSet (400 * t.val) d (S2blk m c t) d') : Filled m c (t.val + 1) d' := by
  intro y hy
  have hy0 : (y 0).val < 10000 := (y 0).isLt
  by_cases hlt : (y 0).val < 400 * t.val
  · rw [h.1 y (Or.inl hlt)]; exact hd y hlt
  · have e1 : blkOf y = t := Fin.ext (by show (y 0).val / 400 = t.val; omega)
    have e2 := h.2 y (inBlk y) (by show (y 0).val = 400 * t.val + (y 0).val % 400; omega) rfl
    rw [e2]; show _ = S2blk m c (blkOf y) (inBlk y); rw [e1]

/-- THE INVARIANT before point n: before the first point the scratch buffers hold anything; afterwards the first holds S1
    and the second agrees with S2 on its first 400 n rows (all of them once n is 25). -/
def Phi (c : Dev nD) : ℕ → sProp 𝕄
  | 0 => Pipeline.ΦA spec0 c
  | n + 1 => iprop(iprop(owns (c : Thread nD τ) scM0 fullShare (S1 m c) ∗ (∃ d, ⌜Filled m c (n + 1) d⌝ ∗ owns (c : Thread nD τ) scM1 fullShare d)) ∗ (∃ r, prngReg c r))

theorem Phi_succ (c : Dev nD) (n : ℕ) :
    Phi m c (n + 1) = iprop(iprop(owns (c : Thread nD τ) scM0 fullShare (S1 m c) ∗ (∃ d, ⌜Filled m c (n + 1) d⌝ ∗ owns (c : Thread nD τ) scM1 fullShare d)) ∗ (∃ r, prngReg c r)) := rfl

theorem Phi_pos (c : Dev nD) (n : ℕ) (hn : n ≠ 0) :
    Phi m c n = iprop(iprop(owns (c : Thread nD τ) scM0 fullShare (S1 m c) ∗ (∃ d, ⌜Filled m c n d⌝ ∗ owns (c : Thread nD τ) scM1 fullShare d)) ∗ (∃ r, prngReg c r)) := by
  cases n with
  | zero => exact absurd rfl hn
  | succ n => rfl

/-! ## The pipeline's proof data -/

/-- After the body at point t every input's buffer holds its block; the output's holds A_i · S2 + b2 (this is read only at
    the points of the second sweep: at the others the body leaves the buffer as it found it). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (S2 m c) (iblk m c 5 t)
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay3 (iblk m c 1 t) (S2 m c) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves_in0 (c : Dev nD) (t : Fin cfg0.N) :
    (dats m 0 c).leavesExact 0 t = owns (c : Thread nD τ) (st0_0 t) fullShare (iblk m c 0 t) := by
  unfold Dat.leavesExact; rw [live0 t, after0_0]
theorem leaves_in1 (c : Dev nD) (t : Fin cfg0.N) :
    (dats m 0 c).leavesExact 1 t = owns (c : Thread nD τ) (st0_1 t) fullShare (iblk m c 1 t) := by
  unfold Dat.leavesExact; rw [live1 t, after0_1]
theorem leaves_in2 (c : Dev nD) (t : Fin cfg0.N) :
    (dats m 0 c).leavesExact 2 t = owns (c : Thread nD τ) (st0_2 t) fullShare (iblk m c 2 t) := by
  unfold Dat.leavesExact; rw [live2 t, after0_2]
theorem leaves_in3 (c : Dev nD) (t : Fin cfg0.N) :
    (dats m 0 c).leavesExact 3 t = owns (c : Thread nD τ) (st0_3 t) fullShare (iblk m c 3 t) := by
  unfold Dat.leavesExact; rw [live3 t, after0_3]
theorem leaves_in4 (c : Dev nD) (t : Fin cfg0.N) :
    (dats m 0 c).leavesExact 4 t = owns (c : Thread nD τ) (st0_4 t) fullShare (iblk m c 4 t) := by
  unfold Dat.leavesExact; rw [live4 t, after0_4]
theorem leaves_in5 (c : Dev nD) (t : Fin cfg0.N) :
    (dats m 0 c).leavesExact 5 t = owns (c : Thread nD τ) (st0_5 t) fullShare (iblk m c 5 t) := by
  unfold Dat.leavesExact; rw [live5 t, after0_5]

/-- In the first sweep the output's buffer is handed back as it was found; -/
theorem leaves6_idle (c : Dev nD) (t : Fin cfg0.N) (h : t.val < 25) :
    (dats m 0 c).leavesExact 6 t = iprop(∃ d, owns (c : Thread nD τ) (st0_6 t) fullShare ((dats m 0 c).before 6 t d)) :=
  (dats m 0 c).leavesExact_idle 6 t ((idle6 t).trans (decide_eq_true h)) ((flush6 t).trans (decide_eq_false (by omega)))
/-- in the second it holds A_i · S2 + b2. -/
theorem leaves6_live (c : Dev nD) (t : Fin cfg0.N) (h : 25 ≤ t.val) :
    (dats m 0 c).leavesExact 6 t = owns (c : Thread nD τ) (st0_6 t) fullShare (k0_pay3 (iblk m c 1 t) (S2 m c) (iblk m c 5 t)) := by
  unfold Dat.leavesExact; rw [idle6 t, decide_eq_false (by omega : ¬t.val < 25), after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; the point is the first one, a later one of the first
    sweep, or one of the second sweep, and the run of that case applies — the invariant hands it the scratch buffers at what
    the point before left and takes them back one block further on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [leaves_in0, leaves_in1, leaves_in2, leaves_in3, leaves_in4, leaves_in5]
  rw [show (dats m 0 c).Φ t.succ = Phi m c (t.val + 1) from rfl, show (dats m 0 c).Φ t.castSucc = Phi m c t.val from rfl, Phi_succ]
  have hN : t.val < 50 := lt_of_lt_of_eq t.isLt (show cfg0.N = 50 from N_0)
  by_cases h1 : t.val < 25
  · rw [leaves6_idle m c t h1]
    have hc1 : inSweep1 (grid0.coords t) := (inSweep1_iff t).mpr h1
    have hc2 : ¬inSweep2 (grid0.coords t) := fun h => absurd ((inSweep2_iff t).mp h) (by omega)
    have hoff : rowOff (grid0.coords t) = 400 * t.val := by
      show 400 * ((grid0.coords t) 1).val = _
      rw [coord1 t, Nat.mod_eq_of_lt h1]
    by_cases hz : t.val = 0
    · have hc0 : atStart (grid0.coords t) := (atStart_iff t).mpr hz
      obtain rfl : t = p0 := Fin.ext hz
      rw [show Phi m c (p0 : Fin cfg0.N).val = Pipeline.ΦA spec0 c from rfl, PhiA_eq]
      iintro ⟨⟨⟨HS0, ⟨%d1, HS1⟩⟩, Hg⟩, Ho, ⟨%d0, H0⟩, ⟨%e1, H1⟩, ⟨%e2, H2⟩, ⟨%e3, H3⟩, ⟨%e4, H4⟩, ⟨%e5, H5⟩, H6⟩
      iapply (runA c Set.univ (grid0.coords p0) _ _ _ _ _ _ _ _ _ _ _ _ _ _ _ _ _ _ hc0 hc1 hc2 (iblk m c 0 p0) (iblk m c 1 p0) (iblk m c 2 p0) (iblk m c 3 p0) (iblk m c 4 p0) (iblk m c 5 p0) d1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%d', %hd', HS1⟩⟩
      isplitl [HS0 HS1 Hg]
      · isplitl [HS0 HS1]
        · isplitl [HS0]
          · iexact HS0
          iexists d'; isplitr
          · ipureintro
            exact filled_step m c p0 d1 d' (fun y hy => absurd hy (by omega)) (by rw [← hoff]; exact hd')
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬atStart (grid0.coords t) := fun h => hz ((atStart_iff t).mp h)
      rw [Phi_pos m c t.val hz]
      iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, H6⟩
      iapply (runB c Set.univ (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) d1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%d', %hd', HS1⟩⟩
      isplitl [HS0 HS1 Hg]
      · isplitl [HS0 HS1]
        · isplitl [HS0]
          · iexact HS0
          iexists d'; isplitr
          · ipureintro
            exact filled_step m c t d1 d' hd1 (by rw [← hoff]; exact hd')
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h2 : 25 ≤ t.val := by omega
    rw [leaves6_live m c t h2]
    have hc0 : ¬atStart (grid0.coords t) := fun h => absurd ((atStart_iff t).mp h) (by omega)
    have hc1 : ¬inSweep1 (grid0.coords t) := fun h => h1 ((inSweep1_iff t).mp h)
    have hc2 : inSweep2 (grid0.coords t) := (inSweep2_iff t).mpr h2
    rw [Phi_pos m c t.val (by omega)]
    iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
    obtain rfl : d1 = S2 m c := funext fun y => hd1 y (by have : (y 0).val < 10000 := (y 0).isLt; omega)
    iapply (runC c Set.univ (grid0.coords t) _ _ _ _ _ _ _ _ _ _ _ _ _ _ _ _ _ _ hc0 hc1 hc2 (iblk m c 0 t) (iblk m c 1 t) (iblk m c 2 t) (iblk m c 3 t) (iblk m c 4 t) (iblk m c 5 t) (S1 m c) (S2 m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists (S2 m c); isplitr
        · ipureintro; exact fun y _ => rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = Phi m c cfg0.N from rfl,
    Phi_pos m c cfg0.N (by rw [show cfg0.N = 50 from N_0]; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and in every final state each array of the pipeline holds what
    the proof data says (an input its contents at entry, the output those overwritten by the blocks written back) and every
    other buffer outside the region what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.Spec.lean ====
import Idealize.ShloMosaic.PureOps.Ideal
import Idealize.ShloMosaic.PureOps.Ideal.Laws
import Idealize.ShloMosaic.Lib.ValueIdx

/-!
# The two-layer graph convolution, as one function of its six arguments

Over the extended reals, index by index:
  support1 = x · W1,   hidden = relu (adj · support1 + b1),   support2 = hidden · W2,   out = adj · support2 + b2,
each matrix product the plain sum over the contracted index, the bias added to every row, relu the maximum with zero.
Both programs compute exactly these sums in exactly this arrangement (the kernel block of rows by block of rows), so no
algebraic law is needed to join them, and no finiteness of the inputs.
-/

noncomputable section

namespace Cert.Gcn

open Idealize.ShloMosaic Idealize.ShloMosaic.ValueIdx

/-- A matrix of extended reals, a by b. -/
abbrev Mat (a b : ℕ) : Type := FVec Ideal (⟨2, ![a, b]⟩ : Shape) .f32
/-- A vector of extended reals of length a. -/
abbrev Vect (a : ℕ) : Type := FVec Ideal (⟨1, ![a]⟩ : Shape) .f32

/-- The matrix product, entry by entry. -/
def mm {a k b : ℕ} (l : Mat a k) (r : Mat k b) : Mat a b := fun i => ∑ q : Fin k, l (ix2 (i 0) q) * r (ix2 q (i 1))

/-- A bias vector added to every row. -/
def addRow {a b : ℕ} (x : Mat a b) (v : Vect b) : Mat a b := fun i => x i + v (ix1 (i 1))

/-- The maximum with the float zero, entry by entry. -/
def relu {a b : ℕ} (x : Mat a b) : Mat a b := fun i => max (x i) (Ideal.ofBits .f32 0x00000000#32)

/-- The a rows of a matrix from row o on. -/
def rows {n k : ℕ} (A : Mat n k) (o a : ℕ) (h : o + a ≤ n) : Mat a k :=
  fun y => A (ix2 ⟨o + (y 0).val, by have := idx2_lt0 y; omega⟩ (y 1))

/-- A one-row matrix as a vector. -/
def rowVec {b : ℕ} (v : Mat 1 b) : Vect b := fun q => v (ix2 0 (q 0))

/-- A block of rows of a product is the product of the block of rows: entry (r, c) of l · r reads row r of l only. -/
theorem mm_rows {n k b : ℕ} (A : Mat n k) (s : Mat k b) (o a : ℕ) (h : o + a ≤ n) : mm (rows A o a h) s = rows (mm A s) o a h := rfl
theorem addRow_rows {n b : ℕ} (X : Mat n b) (v : Vect b) (o a : ℕ) (h : o + a ≤ n) : addRow (rows X o a h) v = rows (addRow X v) o a h := rfl
theorem relu_rows {n b : ℕ} (X : Mat n b) (o a : ℕ) (h : o + a ≤ n) : relu (rows X o a h) = rows (relu X) o a h := rfl

/-- The first layer's support, x · W1. -/
def support1 (x : Mat 10000 128) (W1 : Mat 128 32) : Mat 10000 32 := mm x W1
/-- The second layer's support, relu (adj · support1 + b1) · W2. -/
def support2 (adj : Mat 10000 10000) (s1 : Mat 10000 32) (b1 : Vect 32) (W2 : Mat 32 16) : Mat 10000 16 :=
  mm (relu (addRow (mm adj s1) b1)) W2
/-- The result, adj · support2 + b2. -/
def out (adj : Mat 10000 10000) (s2 : Mat 10000 16) (b2 : Vect 16) : Mat 10000 16 := addRow (mm adj s2) b2

/-- The whole network. -/
def G (x : Mat 10000 128) (adj : Mat 10000 10000) (W1 : Mat 128 32) (b1 : Vect 32) (W2 : Mat 32 16) (b2 : Vect 16) : Mat 10000 16 :=
  out adj (support2 adj (support1 x W1) b1 W2) b2

end Cert.Gcn

end
-- ==== Proof.KernelMath.lean ====
import proofs.«161536_g60687887893100_cont_9to1c4b_149_5_alg».proof.Proof.Gen.KernelIdeal.Skeleton
import proofs.«161536_g60687887893100_cont_9to1c4b_149_5_alg».proof.Proof.Spec
import Idealize.ShloMosaic.Lib.Pipeline.Value
import Idealize.ShloMosaic.Lib.ValueIdx
import Idealize.ShloMosaic.PureOps.Ideal.Laws

/-!
# The body's three payloads over the extended reals, entry by entry

At the ideal instance a change of float format is the identity and the matrix unit's product into a zero accumulator is
the plain sum over the contracted index. So
* the first payload is x · W1;
* the second, on a block A of 400 rows of the adjacency matrix, is relu (A · s1 + b1) · W2, the bias row read from its
  1 × 32 copy;
* the third is A · s2 + b2, the bias row read from its 1 × 16 copy.
-/

noncomputable section

namespace Cert.KernelIdeal.Math

open Cert.KernelIdeal Cert.KernelIdeal.Gen Idealize.ShloMosaic Idealize.ShloMosaic.ValueIdx Cert.Gcn

/-! ## The four matrix products of the body -/

theorem lhs_xw_0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_xw_1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem rhs_xw_0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem rhs_xw_1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl
/-- The matrix unit's product into a zero accumulator, at an entry: the sum over the contracted index. -/
theorem mm_xw {φ₁ φ₂ : FTy} (l : FVec Ideal S10000x128 φ₁) (r : FVec Ideal S128x32 φ₂) (i : S10000x32.Idx) :
    matmul dot_S10000x128_S128x32_S10000x32_1_0_0_1_n_n none l r (constant (F := Ideal) S10000x32 .f32 0x00000000#32) i = ∑ k : Fin 128, l (ix2 (i 0) k) * r (ix2 k (i 1)) := by
  simp only [matmul]
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx i ((ValueIdx.contrEquiv1 dot_S10000x128_S128x32_S10000x32_1_0_0_1_n_n 128 rfl rfl).symm k) = ix2 (i 0) k := funext fun a => Fin.ext (by
    match a with
    | ⟨0, _⟩ => exact lhs_xw_0 _ _
    | ⟨1, _⟩ => exact (lhs_xw_1 _ _).trans hk)
  have er : dot_S10000x128_S128x32_S10000x32_1_0_0_1_n_n.rhsIdx i ((ValueIdx.contrEquiv1 dot_S10000x128_S128x32_S10000x32_1_0_0_1_n_n 128 rfl rfl).symm k) = ix2 k (i 1) := funext fun a => Fin.ext (by
    match a with
    | ⟨0, _⟩ => exact (rhs_xw_0 _ _).trans hk
    | ⟨1, _⟩ => exact rhs_xw_1 _ _)
  rw [el, er]; rfl

theorem lhs_as1_0 (i : S400x32.Idx) (q : dot_S400x10000_S10000x32_S400x32_1_0_0_1_n_n.contr.Idx) : (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_as1_1 (i : S400x32.Idx) (q : dot_S400x10000_S10000x32_S400x32_1_0_0_1_n_n.contr.Idx) : (dot_S400x10000_S10000x32_S400x32_1_0_0_1_n_n.lhsIdx i q 1).val = (q ⟨0, by decide⟩).val :=
  dot_S400x10000_S10000x32_S400x32_1_0_0_1_n_n.lhsIdx_val_of_single rfl i q
theorem rhs_as1_0 (i : S400x32.Idx) (q : dot_S400x10000_S10000x32_S400x32_1_0_0_1_n_n.contr.Idx) : (dot_S400x10000_S10000x32_S400x32_1_0_0_1_n_n.rhsIdx i q 0).val = (q ⟨0, by decide⟩).val :=
  dot_S400x10000_S10000x32_S400x32_1_0_0_1_n_n.rhsIdx_val_of_single rfl i q
theorem rhs_as1_1 (i : S400x32.Idx) (q : dot_S400x10000_S10000x32_S400x32_1_0_0_1_n_n.contr.Idx) : (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- The matrix unit's product into a zero accumulator, at an entry: the sum over the contracted index. -/
theorem mm_as1 {φ₁ φ₂ : FTy} (l : FVec Ideal S400x10000 φ₁) (r : FVec Ideal S10000x32 φ₂) (i : S400x32.Idx) :
    matmul dot_S400x10000_S10000x32_S400x32_1_0_0_1_n_n none l r (constant (F := Ideal) S400x32 .f32 0x00000000#32) i = ∑ k : Fin 10000, l (ix2 (i 0) k) * r (ix2 k (i 1)) := by
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx i ((ValueIdx.contrEquiv1 dot_S400x10000_S10000x32_S400x32_1_0_0_1_n_n 10000 rfl rfl).symm k) = ix2 (i 0) k := funext fun a => Fin.ext (by
    match a with
    | ⟨0, _⟩ => exact lhs_as1_0 _ _
    | ⟨1, _⟩ => exact (lhs_as1_1 _ _).trans hk)
  have er : dot_S400x10000_S10000x32_S400x32_1_0_0_1_n_n.rhsIdx i ((ValueIdx.contrEquiv1 dot_S400x10000_S10000x32_S400x32_1_0_0_1_n_n 10000 rfl rfl).symm k) = ix2 k (i 1) := funext fun a => Fin.ext (by
    match a with
    | ⟨0, _⟩ => exact (rhs_as1_0 _ _).trans hk
    | ⟨1, _⟩ => exact rhs_as1_1 _ _)
  rw [el, er]; rfl

theorem lhs_hw_0 (i : S400x16.Idx) (q : dot_S400x32_S32x16_S400x16_1_0_0_1_n_n.contr.Idx) : (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs_hw_1 (i : S400x16.Idx) (q : dot_S400x32_S32x16_S400x16_1_0_0_1_n_n.contr.Idx) : (dot_S400x32_S32x16_S400x16_1_0_0_1_n_n.lhsIdx i q 1).val = (q ⟨0, by decide⟩).val :=
  dot_S400x32_S32x16_S400x16_1_0_0_1_n_n.lhsIdx_val_of_single rfl i q
theorem rhs_hw_0 (i : S400x16.Idx) (q : dot_S400x32_S32x16_S400x16_1_0_0_1_n_n.contr.Idx) : (dot_S400x32_S32x16_S400x16_1_0_0_1_n_n.rhsIdx i q 0).val = (q ⟨0, by decide⟩).val :=
  dot_S400x32_S32x16_S400x16_1_0_0_1_n_n.rhsIdx_val_of_single rfl i q
theorem rhs_hw_1 (i : S400x16.Idx) (q : dot_S400x32_S32x16_S400x16_1_0_0_1_n_n.contr.Idx) : (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl
/-- The matrix unit's product into a zero accumulator, at an entry: the sum over the contracted index. -/
theorem mm_hw {φ₁ φ₂ : FTy} (l : FVec Ideal S400x32 φ₁) (r : FVec Ideal S32x16 φ₂) (i : S400x16.Idx) :
    matmul dot_S400x32_S32x16_S400x16_1_0_0_1_n_n none l r (constant (F := Ideal) S400x16 .f32 0x00000000#32) i = ∑ k : Fin 32, l (ix2 (i 0) k) * r (ix2 k (i 1)) := by
  simp only [matmul]
  rw [Ideal.matmul_constant_zero_apply, ← Equiv.sum_comp (ValueIdx.contrEquiv1 dot_S400x32_S32x16_S400x16_1_0_0_1_n_n 32 rfl rfl).symm]
  refine Finset.sum_congr rfl fun k _ => ?_
  have hk := ValueIdx.contrEquiv1_symm_val dot_S400x32_S32x16_S400x16_1_0_0_1_n_n 32 rfl rfl k
  have el : dot_S400x32_S32x16_S400x16_1_0_0_1_n_n.lhsIdx i ((ValueIdx.contrEquiv1 dot_S400x32_S32x16_S400x16_1_0_0_1_n_n 32 rfl rfl).symm k) = ix2 (i 0) k := funext fun a => Fin.ext (by
    match a with
    | ⟨0, _⟩ => exact lhs_hw_0 _ _
    | ⟨1, _⟩ => exact (lhs_hw_1 _ _).trans hk)
  have er : dot_S400x32_S32x16_S400x16_1_0_0_1_n_n.rhsIdx i ((ValueIdx.contrEquiv1 dot_S400x32_S32x16_S400x16_1_0_0_1_n_n 32 rfl rfl).symm k) = ix2 k (i 1) := funext fun a => Fin.ext (by
    match a with
    | ⟨0, _⟩ => exact (rhs_hw_0 _ _).trans hk
    | ⟨1, _⟩ => exact rhs_hw_1 _ _)
  rw [el, er]; rfl

theorem lhs_as2_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_as2_1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem rhs_as2_0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
theorem rhs_as2_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- The matrix unit's product into a zero accumulator, at an entry: the sum over the contracted index. -/
theorem mm_as2 {φ₁ φ₂ : FTy} (l : FVec Ideal S400x10000 φ₁) (r : FVec Ideal S10000x16 φ₂) (i : S400x16.Idx) :
    matmul dot_S400x10000_S10000x16_S400x16_1_0_0_1_n_n none l r (constant (F := Ideal) S400x16 .f32 0x00000000#32) i = ∑ k : Fin 10000, l (ix2 (i 0) k) * r (ix2 k (i 1)) := by
  simp only [matmul]
  rw [Ideal.matmul_constant_zero_apply, ← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx i ((ValueIdx.contrEquiv1 dot_S400x10000_S10000x16_S400x16_1_0_0_1_n_n 10000 rfl rfl).symm k) = ix2 (i 0) k := funext fun a => Fin.ext (by
    match a with
    | ⟨0, _⟩ => exact lhs_as2_0 _ _
    | ⟨1, _⟩ => exact (lhs_as2_1 _ _).trans hk)
  have er : dot_S400x10000_S10000x16_S400x16_1_0_0_1_n_n.rhsIdx i ((ValueIdx.contrEquiv1 dot_S400x10000_S10000x16_S400x16_1_0_0_1_n_n 10000 rfl rfl).symm k) = ix2 k (i 1) := funext fun a => Fin.ext (by
    match a with
    | ⟨0, _⟩ => exact (rhs_as2_0 _ _).trans hk
    | ⟨1, _⟩ => exact rhs_as2_1 _ _)
  rw [el, er]; rfl

/-! ## A bias row broadcast down 400 rows -/

theorem bcast32 (v : FVec Ideal S1x32 .f32) (i : S400x32.Idx) :
    broadcastTo S400x32 v broadcasts_S1x32_S400x32 i = v (ix2 0 (i 1)) :=
  broadcastTo_apply v broadcasts_S1x32_S400x32 i (ix2 0 (i 1)) (fun a => by
    match a with
    | ⟨0, _⟩ => rfl
    | ⟨1, _⟩ => rfl)

theorem bcast16 (v : FVec Ideal S1x16 .f32) (i : S400x16.Idx) :
    broadcastTo S400x16 v broadcasts_S1x16_S400x16 i = v (ix2 0 (i 1)) :=
  broadcastTo_apply v broadcasts_S1x16_S400x16 i (ix2 0 (i 1)) (fun a => by
    match a with
    | ⟨0, _⟩ => rfl
    | ⟨1, _⟩ => rfl)

/-! ## The payloads -/

/-- The first payload is the matrix product x · W1. -/
theorem pay1_eq (x0 : Vec Ideal S10000x128 .f32) (x2 : Vec Ideal S128x32 .f32) : k0_pay1 (F := Ideal) x0 x2 = mm x0 x2 := by
  funext i
  unfold k0_pay1
  rw [shapeCast_self]
  exact mm_xw x0 x2 i

/-- The third payload at an entry: row (i 0) of the block times column (i 1) of s2, plus the bias. -/
theorem pay3_apply (x1 : Vec Ideal S400x10000 .f32) (s2 : Vec Ideal S10000x16 .bf16) (x5 : Vec Ideal S1x16 .f32) (i : S400x16.Idx) :
    k0_pay3 (F := Ideal) x1 s2 x5 i = (∑ k : Fin 10000, x1 (ix2 (i 0) k) * s2 (ix2 k (i 1))) + x5 (ix2 0 (i 1)) := by
  unfold k0_pay3
  rw [shapeCast_self]
  show matmul dot_S400x10000_S10000x16_S400x16_1_0_0_1_n_n none (truncf .bf16 x1 bitsLt_bf16_f32) s2 (constant (F := Ideal) S400x16 .f32 0x00000000#32) i
      + broadcastTo S400x16 x5 broadcasts_S1x16_S400x16 i = _
  rw [mm_as2, bcast16]
  rfl

/-- The second payload at an entry. -/
theorem pay2_apply (x1 : Vec Ideal S400x10000 .f32) (s1 : Vec Ideal S10000x32 .bf16) (x3 : Vec Ideal S1x32 .f32) (x4 : Vec Ideal S32x16 .f32) (i : S400x16.Idx) :
    k0_pay2 (F := Ideal) x1 s1 x3 x4 i
      = ∑ j : Fin 32, max ((∑ k : Fin 10000, x1 (ix2 (i 0) k) * s1 (ix2 k j)) + x3 (ix2 0 j)) (Ideal.ofBits .f32 0x00000000#32) * x4 (ix2 j (i 1)) := by
  unfold k0_pay2
  rw [shapeCast_self, shapeCast_self, truncf_apply, mm_hw]
  refine Finset.sum_congr rfl fun j _ => ?_
  rw [maximumf_apply, addf_apply, mm_as1, bcast32, broadcast_apply]
  simp only [truncf_apply]
  rfl

/-- The second payload as a whole block: relu (A · s1 + b1) · W2. -/
theorem pay2_eq (x1 : Vec Ideal S400x10000 .f32) (s1 : Vec Ideal S10000x32 .bf16) (x3 : Vec Ideal S1x32 .f32) (x4 : Vec Ideal S32x16 .f32) :
    k0_pay2 (F := Ideal) x1 s1 x3 x4 = mm (relu (addRow (mm (a := 400) x1 s1) (rowVec x3))) x4 := by
  funext i
  rw [pay2_apply]
  rfl

/-- The third payload as a whole block: A · s2 + b2. -/
theorem pay3_eq (x1 : Vec Ideal S400x10000 .f32) (s2 : Vec Ideal S10000x16 .bf16) (x5 : Vec Ideal S1x16 .f32) :
    k0_pay3 (F := Ideal) x1 s2 x5 = addRow (mm (a := 400) x1 s2) (rowVec x5) := by
  funext i
  rw [pay3_apply]
  rfl

end Cert.KernelIdeal.Math

end
-- ==== Proof.KernelValue.lean ====
import proofs.«161536_g60687887893100_cont_9to1c4b_149_5_alg».proof.Proof.IdealData
import proofs.«161536_g60687887893100_cont_9to1c4b_149_5_alg».proof.Proof.KernelMath
import Idealize.ShloMosaic.Lib.Pipeline.Value
import Idealize.ShloMosaic.Lib.StableHlo.Run

/-!
# The kernel's result array is the network function of its arguments

Over the extended reals. The blocks the windows hand the body are the whole arrays x, W1, W2, the two bias vectors (through
their one-row copies), and for the adjacency matrix the 400 rows from row 400 (t mod 25) on. Hence, with the payloads read
as matrix products:
* S1 is x · W1;
* the block of S2 formed at point j is the corresponding 400 rows of relu (adj · S1 + b1) · W2, so S2 is that matrix;
* what the point t of the second sweep leaves in the output block is the corresponding 400 rows of adj · S2 + b2.
The 25 points of the second sweep write back 25 blocks that tile the result array, so it ends holding the network function.
-/

set_option maxRecDepth 16384

noncomputable section

namespace Cert.KernelIdeal.Out

open Cert.KernelIdeal Cert.KernelIdeal.Gen Cert.KernelIdeal.Math
open Idealize.ShloMosaic Idealize.ShloMosaic.TcCoe Idealize.SL.Sem Idealize.ShloMosaic.ValueIdx Idealize.ShloMosaic.StableHlo Cert.Gcn
open Idealize.ShloMosaic.Pipeline (Dat)

variable (m : (ℓ : Loc nD τ sig) → Buf (Elt Ideal) ℓ) (ρ : Dev nD → PrngReg)

/-! ## The argument arrays, as matrices and vectors of extended reals -/

abbrev aX (c : Dev nD) : Mat 10000 128 := m ((c : Thread nD τ).loc main_arg0)
abbrev aAdj (c : Dev nD) : Mat 10000 10000 := m ((c : Thread nD τ).loc main_arg1)
abbrev aW1 (c : Dev nD) : Mat 128 32 := m ((c : Thread nD τ).loc main_arg2)
abbrev aB1 (c : Dev nD) : Vect 32 := m ((c : Thread nD τ).loc main_arg3)
abbrev aW2 (c : Dev nD) : Mat 32 16 := m ((c : Thread nD τ).loc main_arg4)
abbrev aB2 (c : Dev nD) : Vect 16 := m ((c : Thread nD τ).loc main_arg5)

/-- The network function of the argument arrays on core c. -/
abbrev Gk (c : Dev nD) : Mat 10000 16 := G (aX m c) (aAdj m c) (aW1 m c) (aB1 m c) (aW2 m c) (aB2 m c)

/-! ## The windows' blocks -/

/-- The block index of every window at every point, decided over the grid: constant but for the adjacency matrix, whose
    block follows the second grid coordinate, and the output, whose block does so in the second sweep. -/
theorem idx_all : ∀ t : Fin cfg0.N, win0_0.index t = ![0, 0] ∧ win0_1.index t = ![t.val % 25, 0] ∧ win0_2.index t = ![0, 0]
    ∧ win0_3.index t = ![0, 0] ∧ win0_4.index t = ![0, 0] ∧ win0_5.index t = ![0, 0]
    ∧ win0_6.index t = ![if 25 ≤ t.val then t.val - 25 else 0, 0] :=
  (by decide +kernel : ∀ t : Fin grid0.N, _)

/-- Window 0's block is, at every point, the whole array. -/
theorem blk0 (c : Dev nD) (t : Fin cfg0.N) : (iblk m c 0 t : Vec Ideal S10000x128 .f32) = aX m c := by
  funext y
  have h := (idx_all t).1
  unfold iblk
  rw [View.read_apply]
  show V m c main_arg0 _ = m (c.tc.loc main_arg0) y
  rw [V_main_arg0 m c]
  refine congrArg _ (funext fun a => Fin.ext ?_)
  match a with
  | ⟨0, _⟩ => show win0_0.index t 0 * 10000 + 1 * (y 0).val = (y 0).val; rw [h]; show 0 * 10000 + 1 * (y 0).val = (y 0).val; omega
  | ⟨1, _⟩ => show win0_0.index t 1 * 128 + 1 * (y 1).val = (y 1).val; rw [h]; show 0 * 128 + 1 * (y 1).val = (y 1).val; omega

/-- Window 2's block is, at every point, the whole array. -/
theorem blk2 (c : Dev nD) (t : Fin cfg0.N) : (iblk m c 2 t : Vec Ideal S128x32 .f32) = aW1 m c := by
  funext y
  have h := (idx_all t).2.2.1
  unfold iblk
  rw [View.read_apply]
  show V m c main_arg2 _ = m (c.tc.loc main_arg2) y
  rw [V_main_arg2 m c]
  refine congrArg _ (funext fun a => Fin.ext ?_)
  match a with
  | ⟨0, _⟩ => show win0_2.index t 0 * 128 + 1 * (y 0).val = (y 0).val; rw [h]; show 0 * 128 + 1 * (y 0).val = (y 0).val; omega
  | ⟨1, _⟩ => show win0_2.index t 1 * 32 + 1 * (y 1).val = (y 1).val; rw [h]; show 0 * 32 + 1 * (y 1).val = (y 1).val; omega

/-- Window 4's block is, at every point, the whole array. -/
theorem blk4 (c : Dev nD) (t : Fin cfg0.N) : (iblk m c 4 t : Vec Ideal S32x16 .f32) = aW2 m c := by
  funext y
  have h := (idx_all t).2.2.2.2.1
  unfold iblk
  rw [View.read_apply]
  show V m c main_arg4 _ = m (c.tc.loc main_arg4) y
  rw [V_main_arg4 m c]
  refine congrArg _ (funext fun a => Fin.ext ?_)
  match a with
  | ⟨0, _⟩ => show win0_4.index t 0 * 32 + 1 * (y 0).val = (y 0).val; rw [h]; show 0 * 32 + 1 * (y 0).val = (y 0).val; omega
  | ⟨1, _⟩ => show win0_4.index t 1 * 16 + 1 * (y 1).val = (y 1).val; rw [h]; show 0 * 16 + 1 * (y 1).val = (y 1).val; omega

/-- Window 1's block at point t is the 400 rows of the adjacency matrix from row 400 (t mod 25) on. -/
theorem blk1 (c : Dev nD) (t : Fin cfg0.N) :
    (iblk m c 1 t : Vec Ideal S400x10000 .f32) = rows (aAdj m c) (400 * (t.val % 25)) 400 (by omega) := by
  funext y
  have h := (idx_all t).2.1
  unfold iblk
  rw [View.read_apply]
  show V m c main_arg1 _ = m (c.tc.loc main_arg1) _
  rw [V_main_arg1 m c]
  refine congrArg _ (funext fun a => Fin.ext ?_)
  match a with
  | ⟨0, _⟩ => show win0_1.index t 0 * 400 + 1 * (y 0).val = 400 * (t.val % 25) + (y 0).val; rw [h]; show (t.val % 25) * 400 + 1 * (y 0).val = _; omega
  | ⟨1, _⟩ => show win0_1.index t 1 * 10000 + 1 * (y 1).val = (y 1).val; rw [h]; show 0 * 10000 + 1 * (y 1).val = (y 1).val; omega

/-- Window 3 stages the 1 × 32 copy of the bias the program makes before the region: read as a vector it is the bias. -/
theorem blk3 (c : Dev nD) (t : Fin cfg0.N) : rowVec (iblk m c 3 t : Vec Ideal S1x32 .f32) = aB1 m c := by
  funext q
  have h := (idx_all t).2.2.2.1
  have e : (V m c main_v0 : S1x32.Idx → Elt Ideal .f32) = shapeCast S1x32 (m ((c : Thread nD τ).loc main_arg3)) shapeCasts_S32_S1x32 := by
    dsimp only [V, hostOps0]; after_results; rfl
  show (iblk m c 3 t : Vec Ideal S1x32 .f32) (ix2 0 (q 0)) = _
  unfold iblk
  rw [View.read_apply]
  show V m c main_v0 _ = m (c.tc.loc main_arg3) q
  rw [e]
  refine (shapeCast_apply _ _ _ q ?_).trans rfl
  rw [Shape.rowMajor_val_one, Shape.rowMajor_val_two]
  show (q 0).val = (win0_3.index t 0 * 1 + 1 * 0) * 32 + (win0_3.index t 1 * 32 + 1 * (q 0).val)
  rw [h]
  show (q 0).val = (0 * 1 + 1 * 0) * 32 + (0 * 32 + 1 * (q 0).val)
  omega

/-- Window 5 stages the 1 × 16 copy of the bias the program makes before the region: read as a vector it is the bias. -/
theorem blk5 (c : Dev nD) (t : Fin cfg0.N) : rowVec (iblk m c 5 t : Vec Ideal S1x16 .f32) = aB2 m c := by
  funext q
  have h := (idx_all t).2.2.2.2.2.1
  have e : (V m c main_v1 : S1x16.Idx → Elt Ideal .f32) = shapeCast S1x16 (m ((c : Thread nD τ).loc main_arg5)) shapeCasts_S16_S1x16 := by
    dsimp only [V, hostOps0]; after_results; rfl
  show (iblk m c 5 t : Vec Ideal S1x16 .f32) (ix2 0 (q 0)) = _
  unfold iblk
  rw [View.read_apply]
  show V m c main_v1 _ = m (c.tc.loc main_arg5) q
  rw [e]
  refine (shapeCast_apply _ _ _ q ?_).trans rfl
  rw [Shape.rowMajor_val_one, Shape.rowMajor_val_two]
  show (q 0).val = (win0_5.index t 0 * 1 + 1 * 0) * 16 + (win0_5.index t 1 * 16 + 1 * (q 0).val)
  rw [h]
  show (q 0).val = (0 * 1 + 1 * 0) * 16 + (0 * 16 + 1 * (q 0).val)
  omega

/-! ## The scratch contents -/

theorem S1_eq (c : Dev nD) : (S1 m c : Vec Ideal S10000x32 .bf16) = support1 (aX m c) (aW1 m c) := by
  unfold S1
  rw [pay1_eq, blk0, blk2]
  rfl

/-- The block of S2 formed at point j is 400 rows of relu (adj · S1 + b1) · W2. -/
theorem S2blk_eq (c : Dev nD) (j : Fin cfg0.N) :
    (S2blk m c j : Vec Ideal S400x16 .bf16)
      = rows (support2 (aAdj m c) (support1 (aX m c) (aW1 m c)) (aB1 m c) (aW2 m c)) (400 * (j.val % 25)) 400 (by omega) := by
  unfold S2blk
  rw [pay2_eq, S1_eq, blk1, blk3, blk4, mm_rows, addRow_rows, relu_rows, mm_rows]
  rfl

theorem S2_eq (c : Dev nD) : (S2 m c : Vec Ideal S10000x16 .bf16) = support2 (aAdj m c) (support1 (aX m c) (aW1 m c)) (aB1 m c) (aW2 m c) := by
  funext y
  have hy0 : (y 0).val < 10000 := (y 0).isLt
  show S2blk m c (blkOf y) (inBlk y) = _
  rw [S2blk_eq]
  show support2 (aAdj m c) (support1 (aX m c) (aW1 m c)) (aB1 m c) (aW2 m c) (ix2 ⟨400 * ((y 0).val / 400 % 25) + (y 0).val % 400, _⟩ (inBlk y 1)) = _
  refine congrArg _ (funext fun a => ?_)
  match a with
  | ⟨0, _⟩ => exact Fin.ext (by show 400 * ((y 0).val / 400 % 25) + (y 0).val % 400 = (y 0).val; omega)
  | ⟨1, _⟩ => rfl

/-! ## The output -/

/-- What a point of the second sweep leaves in the output block: 400 rows of the network function. -/
theorem after6_eq (c : Dev nD) (t : Fin cfg0.N) :
    (k0_pay3 (F := Ideal) (iblk m c 1 t) (S2 m c) (iblk m c 5 t) : Vec Ideal S400x16 .f32) = rows (Gk m c) (400 * (t.val % 25)) 400 (by omega) := by
  rw [pay3_eq, S2_eq, blk1, blk5, mm_rows, addRow_rows]
  rfl

/-- WHAT POINT t WRITES BACK is its block of the network function. -/
theorem flushed_eq (c : Dev nD) (t : Fin cfg0.N) (hf : (cfg0.win 6).flush t = true) :
    (dats m 0 c).flushed 6 t = ((cfg0.win 6).blk t).view.read (Elt Ideal) (Gk m c) := by
  have h25 : 25 ≤ t.val := by rw [flush6 t] at hf; exact of_decide_eq_true hf
  have hN : t.val < 50 := lt_of_lt_of_eq t.isLt (show cfg0.N = 50 from N_0)
  have h := (idx_all t).2.2.2.2.2.2
  show (cfg0.win 6).cut (grid0.coords t) ((dats m 0 c).after 6 t) = _
  rw [after0_6, after6_eq]
  funext y
  rw [View.read_apply]
  show Gk m c (ix2 ⟨400 * (t.val % 25) + (y 0).val, _⟩ (y 1)) = Gk m c _
  refine congrArg _ (funext fun a => Fin.ext ?_)
  match a with
  | ⟨0, _⟩ => show 400 * (t.val % 25) + (y 0).val = win0_6.index t 0 * 400 + 1 * (y 0).val; rw [h]; show _ = (if 25 ≤ t.val then t.val - 25 else 0) * 400 + 1 * (y 0).val; rw [if_pos h25]; omega
  | ⟨1, _⟩ => show (y 1).val = win0_6.index t 1 * 16 + 1 * (y 1).val; rw [h]; show (y 1).val = 0 * 16 + 1 * (y 1).val; omega

/-- An index of the result array is in point t's block iff each coordinate is in the block's range. -/
theorem mem_blk6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v2).slice (win0_6.rect t)).set ↔ _
  rw [View.set_slice_whole, Rect.mem_set_unit]
  exact Iff.rfl

/-- Every row of the result array lies in the block some point of the second sweep writes back. -/
theorem covered (i : S10000x16.Idx) : ∃ t : Fin cfg0.N, (cfg0.win 6).flush t = true ∧ i ∈ ((cfg0.win 6).blk t).view.set := by
  have hi0 : (i 0).val < 10000 := (i 0).isLt
  have hi1 : (i 1).val < 16 := (i 1).isLt
  let t : Fin cfg0.N := ⟨25 + (i 0).val / 400, by rw [show cfg0.N = 50 from N_0]; omega⟩
  have ht : t.val = 25 + (i 0).val / 400 := rfl
  have h := (idx_all t).2.2.2.2.2.2
  refine ⟨t, (flush6 t).trans (decide_eq_true (by omega)), ?_⟩
  rw [mem_blk6]
  intro a
  match a with
  | ⟨0, _⟩ =>
    show win0_6.index t 0 * 400 ≤ (i 0).val ∧ (i 0).val < win0_6.index t 0 * 400 + 400
    rw [h]; show (if 25 ≤ t.val then t.val - 25 else 0) * 400 ≤ (i 0).val ∧ (i 0).val < (if 25 ≤ t.val then t.val - 25 else 0) * 400 + 400
    rw [if_pos (by omega)]; omega
  | ⟨1, _⟩ =>
    show win0_6.index t 1 * 16 ≤ (i 1).val ∧ (i 1).val < win0_6.index t 1 * 16 + 16
    rw [h]; show 0 * 16 ≤ (i 1).val ∧ (i 1).val < 0 * 16 + 16
    omega

/-- THE RESULT ARRAY after the run is the network function of the argument arrays. -/
theorem final (c : Dev nD) : (dats m 0 c).arrAt 6 cfg0.N = Gk m c :=
  (dats m 0 c).arrAt_eq_of_cover 6 (Gk m c) (flushed_eq m c) (covered)

/-- The run, read: the result array at the network function of the arguments, the arguments unchanged. -/
theorem run : θ_run defs (onTc (τ := τ) (main (F := Ideal))) ⟨m, fun _ => 0, ρ⟩ fun r => ∀ c : Dev nD,
      r.2.mem ((c.tc : Thread nD τ).loc main_v2) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Out

end
-- ==== Proof.RefValue.lean ====
import proofs.«161536_g60687887893100_cont_9to1c4b_149_5_alg».proof.Proof.Gen.ReferenceIdeal.Read
import proofs.«161536_g60687887893100_cont_9to1c4b_149_5_alg».proof.Proof.Spec

/-!
# The reference computes the network function

The reference program is thirteen host operations; read one at a time at an index, its stages are the pieces of the
network function: x · W1, then adj · (that) with b1 added to every row, the maximum with zero, the product with W2, the
product of adj with that, and b2 added to every row. Each stage is identified with its piece as a whole function, in
program order; the operand index functions of the matrix products are the pairs (row, k) and (k, column).
-/

noncomputable section

namespace Cert.ReferenceIdeal.RefValue

open Cert.ReferenceIdeal Cert.ReferenceIdeal.Gen Cert.ReferenceIdeal.Read Idealize.ShloMosaic Idealize.ShloMosaic.ValueIdx Cert.Gcn

/-! ## The operand indices of the four matrix products, and of the two bias broadcasts -/

theorem lidx_v0 (i : S10000x32.Idx) (k : Fin 128) : lidx_main_v0 i k = ix2 (i 0) k :=
  funext fun a => by match a with | ⟨0, _⟩ => rfl | ⟨1, _⟩ => rfl
theorem ridx_v0 (i : S10000x32.Idx) (k : Fin 128) : ridx_main_v0 i k = ix2 k (i 1) :=
  funext fun a => by match a with | ⟨0, _⟩ => rfl | ⟨1, _⟩ => rfl
theorem lidx_v1 (i : S10000x32.Idx) (k : Fin 10000) : lidx_main_v1 i k = ix2 (i 0) k :=
  funext fun a => by match a with | ⟨0, _⟩ => rfl | ⟨1, _⟩ => rfl
theorem ridx_v1 (i : S10000x32.Idx) (k : Fin 10000) : ridx_main_v1 i k = ix2 k (i 1) :=
  funext fun a => by match a with | ⟨0, _⟩ => rfl | ⟨1, _⟩ => rfl
theorem lidx_v6 (i : S10000x16.Idx) (k : Fin 32) : lidx_main_v6 i k = ix2 (i 0) k :=
  funext fun a => by match a with | ⟨0, _⟩ => rfl | ⟨1, _⟩ => rfl
theorem ridx_v6 (i : S10000x16.Idx) (k : Fin 32) : ridx_main_v6 i k = ix2 k (i 1) :=
  funext fun a => by match a with | ⟨0, _⟩ => rfl | ⟨1, _⟩ => rfl
theorem lidx_v7 (i : S10000x16.Idx) (k : Fin 10000) : lidx_main_v7 i k = ix2 (i 0) k :=
  funext fun a => by match a with | ⟨0, _⟩ => rfl | ⟨1, _⟩ => rfl
theorem ridx_v7 (i : S10000x16.Idx) (k : Fin 10000) : ridx_main_v7 i k = ix2 k (i 1) :=
  funext fun a => by match a with | ⟨0, _⟩ => rfl | ⟨1, _⟩ => rfl
theorem bias1_idx (i : S10000x32.Idx) : idx_main_v2 (idx_main_v3 i) = ix1 (i 1) :=
  funext fun a => by match a with | ⟨0, _⟩ => rfl
theorem bias2_idx (i : S10000x16.Idx) : idx_main_v8 (idx_main_v9 i) = ix1 (i 1) :=
  funext fun a => by match a with | ⟨0, _⟩ => rfl

variable (x0 : Mat 10000 128) (x1 : Mat 10000 10000) (x2 : Mat 128 32) (x3 : Vect 32) (x4 : Mat 32 16) (x5 : Vect 16)

/-! ## The stages, in program order -/

theorem stage0 : val_main_v0 (F := Ideal) x0 x2 = support1 x0 x2 := by
  funext i
  rw [val_main_v0_apply]
  simp only [lidx_v0, ridx_v0]
  rfl

theorem stage1 : val_main_v1 (F := Ideal) x0 x1 x2 = mm x1 (support1 x0 x2) := by
  funext i
  rw [val_main_v1_apply, stage0]
  simp only [lidx_v1, ridx_v1]
  rfl

theorem stage4 : val_main_v4 (F := Ideal) x0 x1 x2 x3 = addRow (mm x1 (support1 x0 x2)) x3 := by
  funext i
  rw [val_main_v4_apply, stage1, val_main_v3_apply, val_main_v2_apply, bias1_idx]
  rfl

theorem stage5 : val_main_v5 (F := Ideal) x0 x1 x2 x3 = relu (addRow (mm x1 (support1 x0 x2)) x3) := by
  funext i
  rw [val_main_v5_apply, stage4, val_main_call0_v0_apply, val_main_call0_cst_apply]
  rfl

theorem stage6 : val_main_v6 (F := Ideal) x0 x1 x2 x3 x4 = support2 x1 (support1 x0 x2) x3 x4 := by
  funext i
  rw [val_main_v6_apply, stage5]
  simp only [lidx_v6, ridx_v6]
  rfl

theorem stage7 : val_main_v7 (F := Ideal) x0 x1 x2 x3 x4 = mm x1 (support2 x1 (support1 x0 x2) x3 x4) := by
  funext i
  rw [val_main_v7_apply, stage6]
  simp only [lidx_v7, ridx_v7]
  rfl

/-- THE REFERENCE'S RESULT is the network function of its arguments. -/
theorem result_eq : val_main_v10 (F := Ideal) x0 x1 x2 x3 x4 x5 = G x0 x1 x2 x3 x4 x5 := by
  funext i
  rw [val_main_v10_apply, stage7, val_main_v9_apply, val_main_v8_apply, bias2_idx]
  rfl

end Cert.ReferenceIdeal.RefValue

end
-- ==== Proof.lean ====
/-
  A two-layer graph convolution on a dense 10000 × 10000 adjacency matrix,
      out = adj · (relu (adj · (x · W1) + b1) · W2) + b2,
  computed by ONE kernel in two sweeps over the 25 blocks of 400 rows of adj, against the plain jnp reference.

  The kernel keeps two scratch arrays between grid points: s1 = x · W1, formed at the first point, and
  s2 = relu (adj · s1 + b1) · W2, formed 400 rows at a time during the first sweep; the second sweep writes
  adj_i · s2 + b2 into the i-th block of rows of the result. Over the extended reals the changes of float format
  (the kernel keeps s1, s2 and its copy of each adj block in bf16) are the identity and every matrix product is the
  plain sum over the contracted index, so the kernel's result and the reference's are the same sums in the same
  arrangement: no algebraic law and no finiteness of the inputs is used.

  The modules:
  * Spec          — the network function G of the six arguments, entry by entry, and blocks of rows of a matrix.
  * IdealRuns / WordRuns — the body run symbolically in its three control cases (first point, first sweep, second
                    sweep), every buffer's contents named; the same text at the two instances of the float operations.
  * IdealData / WordData — the invariant carried between points (s1; s2 filled 400 rows at a time), the proof data,
                    the body obligation at every point, the run of the program and the frame.
  * KernelMath    — the body's three payloads over the extended reals as matrix products.
  * KernelValue   — the windows' blocks as rows of the argument arrays; s1, s2 and the result array as G's pieces.
  * RefValue      — the reference's thirteen operations, stage by stage, are G.
-/
import proofs.«161536_g60687887893100_cont_9to1c4b_149_5_alg».proof.Defs
import proofs.«161536_g60687887893100_cont_9to1c4b_149_5_alg».proof.Proof.Gen.Kernel
import proofs.«161536_g60687887893100_cont_9to1c4b_149_5_alg».proof.Proof.Gen.KernelIdeal
import proofs.«161536_g60687887893100_cont_9to1c4b_149_5_alg».proof.Proof.Gen.ReferenceIdeal
import proofs.«161536_g60687887893100_cont_9to1c4b_149_5_alg».proof.Proof.Gen.Pre_finite_inputs
import proofs.«161536_g60687887893100_cont_9to1c4b_149_5_alg».proof.Proof.WordData
import proofs.«161536_g60687887893100_cont_9to1c4b_149_5_alg».proof.Proof.KernelValue
import proofs.«161536_g60687887893100_cont_9to1c4b_149_5_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is thirteen host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel's result array ends at the network
    function G of the arguments and the reference's at its composed term, which is G of the same arguments. -/
theorem algebraic : Cert.algebraic_KernelIdeal_ReferenceIdeal := by
  intro m ρ m' ρ' _ hagree
  refine ⟨fun c => Cert.KernelIdeal.Out.Gk m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
